-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S100x128 : Shape := ⟨2, ![100, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_

variable [Facts]

def fn {F : FTy → Type} [FloatOps F] (main_arg0 : FVec F S262144x128 .f32) (main_arg1 : FVec F S100x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  main_v8
-- ==== Kernel.lean ====
abbrev S262144x128 : Shape := ⟨2, ![262144, 128]⟩
abbrev S100x128 : Shape := ⟨2, ![100, 128]⟩
abbrev S128x100 : Shape := ⟨2, ![128, 100]⟩
abbrev S_ : Shape := ⟨0, ![]⟩
abbrev S128x128 : Shape := ⟨2, ![128, 128]⟩
abbrev S262144 : Shape := ⟨1, ![262144]⟩
abbrev S16384x128 : Shape := ⟨2, ![16384, 128]⟩
abbrev S16384 : Shape := ⟨1, ![16384]⟩
abbrev S262144x1 : Shape := ⟨2, ![262144, 1]⟩

abbrev nBuf : Space → Nat
  | .hbm => 9
  | .vmem => 5
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S128x100, .f32⟩
  | .hbm, ⟨3, _⟩ => ⟨S128x100, .bf16⟩
  | .hbm, ⟨4, _⟩ => ⟨S_, .i32⟩
  | .hbm, ⟨5, _⟩ => ⟨S_, .bf16⟩
  | .hbm, ⟨6, _⟩ => ⟨S128x128, .bf16⟩
  | .hbm, ⟨7, _⟩ => ⟨S262144, .f32⟩
  | .hbm, ⟨8, _⟩ => ⟨S262144x1, .f32⟩
  | .local _ .vmem, ⟨0, _⟩ => ⟨S16384x128, .f32⟩
  | .local _ .vmem, ⟨1, _⟩ => ⟨S16384x128, .f32⟩
  | .local _ .vmem, ⟨2, _⟩ => ⟨S128x128, .bf16⟩
  | .local _ .vmem, ⟨3, _⟩ => ⟨S16384, .f32⟩
  | .local _ .vmem, ⟨4, _⟩ => ⟨S16384, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100x128_S128x100_1_0 : S100x128.Transposes [1, 0] S128x100
  bitsLt_bf16_f32 : FTy.bits .bf16 < FTy.bits .f32
  pads_S128x100_S128x128_000_0280 : S128x100.Pads (![0, 0] : Fin 2 → Nat) ![0, 28] ![0, 0] S128x128
  h_S_ : 0 < S_.numel
  inb_S16384x128_S16384x128_0_0 : ∀ a, (![0, 0] : Fin 2 → Nat) a + S16384x128.size a ≤ S16384x128.size a
  h_S16384x128 : 0 < S16384x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S16384x128_S16384 : S16384x128.Reduces [1] S16384
  inb_S16384_S16384_0 : ∀ a, (![0] : Fin 1 → Nat) a + S16384.size a ≤ S16384.size a
  h_S16384 : 0 < S16384.numel
  shapeCasts_S262144_S262144x1 : S262144.ShapeCasts S262144x1
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S262144.size a
  hwx0_2 : ∀ i : grid0.Coords, EltTy.bits .f32 = 32 ∨ (Rect.block (s := S262144) S16384.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S100x128 : Shape := ⟨2, ![100, 128]⟩
abbrev S262144x100 : Shape := ⟨2, ![262144, 100]⟩
abbrev S_ : Shape := ⟨0, ![]⟩
abbrev S262144 : Shape := ⟨1, ![262144]⟩
abbrev S262144x1 : Shape := ⟨2, ![262144, 1]⟩

abbrev nBuf : Space → Nat
  | .hbm => 12
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S262144x100, .f32⟩
  | .hbm, ⟨3, _⟩ => ⟨S262144x100, .f32⟩
  | .hbm, ⟨4, _⟩ => ⟨S262144x100, .f32⟩
  | .hbm, ⟨5, _⟩ => ⟨S_, .f32⟩
  | .hbm, ⟨6, _⟩ => ⟨S262144x100, .f32⟩
  | .hbm, ⟨7, _⟩ => ⟨S262144x100, .f32⟩
  | .hbm, ⟨8, _⟩ => ⟨S262144x100, .f32⟩
  | .hbm, ⟨9, _⟩ => ⟨S_, .f32⟩
  | .hbm, ⟨10, _⟩ => ⟨S262144, .f32⟩
  | .hbm, ⟨11, _⟩ => ⟨S262144x1, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S262144x100 : S_.BroadcastsInDim S262144x100 (![] : Fin 0 → Fin S262144x100.rank)
  reducesTo_S262144x100_S262144_d1 : S262144x100.ReducesTo [1] S262144
  h_S_ : 0 < S_.numel
  bcast_S262144_S262144x1_0 : S262144.BroadcastsInDim S262144x1 (![0] : Fin 1 → Fin S262144x1.rank)
  dot_S262144x128_S100x128_S262144x100_1_1_0_0_n_n_wf : DotDims.WF S262144x128 S100x128 S262144x100 [1] [1] [0] [0] [] []

variable [Facts₀]

def dot_S262144x128_S100x128_S262144x100_1_1_0_0_n_n : DotDims S262144x128 S100x128 S262144x100 where
  lhsContracting := [1]
  rhsContracting := [1]
  lhsNonContracting := [0]
  rhsNonContracting := [0]
  lhsBatch := []
  rhsBatch := []
  wf := dot_S262144x128_S100x128_S262144x100_1_1_0_0_n_n_wf

class Facts : Prop extends Facts₀ where

variable [Facts]
-- ==== Proof.HeadSum.lean ====
/-
  The function both programs compute, and the one law that joins them.

  For a row `b` of `x : [262144, 128]` and the weight rows `w : [100, 128]` (one row per head), head `h` answers
  `z = ∑ₖ x[b,k] · w[h,k]`, the answer is passed through `z ↦ (z·z)·z + α·z` (α the f32 word 0x3DCCCCCD, the same
  word in both programs, never evaluated), and the hundred results are added: `rowTotal x w b`. The result array
  `[262144, 1]` holds that total at `(b, 0)`.

  The kernel multiplies the row by a 128 × 128 matrix whose column `j` is head `j`'s weight row for `j < 100` and zero
  for the 28 columns beyond, and adds over all 128 lanes. A lane beyond the hundredth has `z = ∑ₖ x[b,k] · 0 = 0`
  — `a · 0 = 0` for every extended real, the infinities included — and `(0·0)·0 + α·0 = 0`, so it adds nothing:
  `lanes_eq_heads`. No finiteness of the inputs is used.
-/
import Idealize.ShloMosaic.Lib.ValueIdx
import Idealize.ShloMosaic.PureOps.Ideal.Laws

noncomputable section

open scoped BigOperators

namespace Cert.HeadSum

open Idealize.ShloMosaic Idealize.ShloMosaic.ValueIdx

/-- The linear term's coefficient, as the word both programs carry. -/
abbrev α : EReal := Ideal.ofBits .f32 0x3DCCCCCD#32

/-- `z ↦ (z·z)·z + α·z`, grouped as both programs compute it. -/
def cubic (z : EReal) : EReal := z * z * z + α * z

/-- At zero the nonlinearity is zero. -/
theorem cubic_zero : cubic 0 = 0 := by
  unfold cubic
  rw [mul_zero, mul_zero, add_zero]

/-- Head `h`'s answer to row `b`: the row against the head's weight row. -/
def score (x : (⟨2, ![262144, 128]⟩ : Shape).Idx → EReal) (w : (⟨2, ![100, 128]⟩ : Shape).Idx → EReal)
    (b : Fin 262144) (h : Fin 100) : EReal :=
  ∑ k : Fin 128, x (ix2 b k) * w (ix2 h k)

/-- Row `b`'s total over the hundred heads. -/
def rowTotal (x : (⟨2, ![262144, 128]⟩ : Shape).Idx → EReal) (w : (⟨2, ![100, 128]⟩ : Shape).Idx → EReal)
    (b : Fin 262144) : EReal :=
  ∑ h : Fin 100, cubic (score x w b h)

/-- The result array: row `b`'s total at `(b, 0)`. -/
def total (x : (⟨2, ![262144, 128]⟩ : Shape).Idx → EReal) (w : (⟨2, ![100, 128]⟩ : Shape).Idx → EReal) :
    (⟨2, ![262144, 1]⟩ : Shape).Idx → EReal :=
  fun i => rowTotal x w ⟨(i 0).val, idx2_lt0 i⟩

/-- A sum over 128 lanes whose terms from the hundredth on vanish is the sum of its first hundred terms. -/
theorem sum_lanes (f : Fin 128 → EReal) (g : Fin 100 → EReal)
    (hlo : ∀ h : Fin 100, f ⟨h.val, by omega⟩ = g h) (hhi : ∀ j : Fin 128, 100 ≤ j.val → f j = 0) :
    ∑ j : Fin 128, f j = ∑ h : Fin 100, g h := by
  have hsplit := Fin.sum_univ_add (a := 100) (b := 28) (f := f)
  refine hsplit.trans ?_
  rw [Finset.sum_eq_zero (s := (Finset.univ : Finset (Fin 28))) (fun i _ => hhi (Fin.natAdd 100 i) (by simp)), add_zero]
  exact Finset.sum_congr rfl fun h _ => hlo h

/-- THE LAW. A row `x` against a 128 × 128 matrix `wp` whose column `j` is weight row `j` of `w` for `j < 100` and zero
    beyond, passed through the nonlinearity and added over all 128 lanes, is the row's total over the hundred heads. -/
theorem lanes_eq_heads (x : Fin 128 → EReal) (w : (⟨2, ![100, 128]⟩ : Shape).Idx → EReal)
    (wp : (⟨2, ![128, 128]⟩ : Shape).Idx → EReal)
    (hin : ∀ (k : Fin 128) (h : Fin 100), wp (ix2 k ⟨h.val, by omega⟩) = w (ix2 h k))
    (hout : ∀ (k j : Fin 128), 100 ≤ j.val → wp (ix2 k j) = 0) :
    ∑ j : Fin 128, cubic (∑ k : Fin 128, x k * wp (ix2 k j))
      = ∑ h : Fin 100, cubic (∑ k : Fin 128, x k * w (ix2 h k)) := by
  refine sum_lanes _ _ (fun h => ?_) (fun j hj => ?_)
  · exact congrArg cubic (Finset.sum_congr rfl fun k _ => by rw [hin k h])
  · rw [Finset.sum_eq_zero (fun k _ => by rw [hout k j hj, mul_zero]), cubic_zero]

end Cert.HeadSum

end
-- ==== Proof.ReferenceRows.lean ====
/-
  The reference, read row by row.

  The reference contracts each row of `x` with each weight row (`dot_general` over the shared feature axis), passes
  every answer through the nonlinearity, adds a row's hundred results from the zero word, and stores the totals as a
  column. Read at `(b, 0)` through the generated one-operation-at-a-time lemmas this is `0 + rowTotal x w b`, so the
  reference's result array is `HeadSum.total`.
-/
import proofs.«138010_j4200478015619_2_alg».proof.Proof.Gen.ReferenceIdeal.Read
import proofs.«138010_j4200478015619_2_alg».proof.Proof.HeadSum

noncomputable section

open scoped BigOperators

namespace Cert.HeadSum.Reference

open Cert.ReferenceIdeal Cert.ReferenceIdeal.Read Idealize.ShloMosaic Idealize.ShloMosaic.ValueIdx

/-- The reference's last stage is the row totals, stored as a column. -/
theorem result_eq_total (x : (⟨S262144x128, .f32⟩ : BufTy).Contents (Elt Ideal)) (w : (⟨S100x128, .f32⟩ : BufTy).Contents (Elt Ideal)) :
    val_main_v7 (F := Ideal) x w = Cert.HeadSum.total x w := by
  funext i
  -- the row of `x` and the weight row each factor of head `h`'s contraction reads
  have hl : ∀ (h : Fin 100) (k : Fin 128),
      lidx_main_v0 (idx_main_v6 (idx_main_v7 i) h) k = ix2 (⟨(i 0).val, idx2_lt0 i⟩ : Fin 262144) k := fun h k =>
    funext fun a => Fin.ext (by match a with | ⟨0, _⟩ => rfl | ⟨1, _⟩ => rfl)
  have hr : ∀ (h : Fin 100) (k : Fin 128),
      ridx_main_v0 (idx_main_v6 (idx_main_v7 i) h) k = ix2 h k := fun h k =>
    funext fun a => Fin.ext (by match a with | ⟨0, _⟩ => rfl | ⟨1, _⟩ => rfl)
  rw [val_main_v7_apply, val_main_v6_apply]
  simp only [val_main_v5_apply, val_main_v4_apply, val_main_v3_apply, val_main_v2_apply, val_main_v1_apply,
    val_main_cst_apply, val_main_cst_0_apply, val_main_v0_apply, hl, hr, Ideal.mulf_def, Ideal.addf_def, Ideal.ofBits_def,
    Ideal.ofBits_zero_f32, zero_add]
  rfl

end Cert.HeadSum.Reference

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KernelRow.lean ====
/-
  The kernel's body at one row of its block.

  The body multiplies its 16384 × 128 block of `x` by the 128 × 128 matrix it is handed (both read in bf16, which on
  the extended reals changes nothing; the accumulator is the zero splat), passes every entry `z` through
  `(z·z)·z + α·z`, and adds each row's 128 lanes from the zero word. At row `r` the stored value is therefore
  `∑ⱼ cubic (∑ₖ x[r,k] · wp[k,j])` over the 128 lanes `j`.
-/
import proofs.«138010_j4200478015619_2_alg».proof.Proof.Gen.KernelIdeal.Skeleton
import proofs.«138010_j4200478015619_2_alg».proof.Proof.HeadSum
import proofs.«138010_j4200478015619_2_alg».proof.Proof.LibPlainDot
import Idealize.ShloMosaic.Lib.Pipeline.Value

noncomputable section

open scoped BigOperators

namespace Cert.HeadSum.Kernel

open Cert.KernelIdeal Cert.KernelIdeal.Gen Idealize.ShloMosaic Idealize.ShloMosaic.ValueIdx

/-- Entry `(r, j)` of the block's product with the matrix: the row against column `j`. -/
theorem product_entry (x0 : FVec Ideal S16384x128 .f32) (x1 : FVec Ideal S128x128 .bf16) (r : Fin 16384) (j : Fin 128) :
    (matmul dot_S16384x128_S128x128_S16384x128_1_0_0_1_n_n none (truncf .bf16 x0 bitsLt_bf16_f32)
        (shapeCast S128x128 x1 shapeCasts_S128x128_S128x128) (constant S16384x128 .f32 0x00000000#32) : FVec Ideal S16384x128 .f32) (ix2 r j)
      = ∑ k : Fin 128, x0 (ix2 r k) * x1 (ix2 k j) := by
  rw [shapeCast_self]
  exact Cert.Lib.PlainDot.matmul_zero_apply (M := 16384) (K := 128) (N := 128) none (truncf .bf16 x0 bitsLt_bf16_f32) x1 r j

/-- THE BODY AT A ROW: what the body stores at row `r` of its output block, from its two loaded blocks. -/
theorem payload_row (x0 : Vec Ideal S16384x128 .f32) (x1 : Vec Ideal S128x128 .bf16) (r : Fin 16384) :
    k0_pay1 (F := Ideal) x0 x1 (ix1 r)
      = ∑ j : Fin 128, Cert.HeadSum.cubic (∑ k : Fin 128, x0 (ix2 r k) * x1 (ix2 k j)) := by
  unfold k0_pay1
  refine (Ideal.multiReduction_add_single _ 0x00000000#32 reduces_S16384x128_S16384 (.inl rfl) rfl (ix1 r)).trans ?_
  refine Finset.sum_congr rfl fun j _ => ?_
  have hj : reduces_S16384x128_S16384.lift (ix1 r) j = ix2 r j :=
    funext fun a => Fin.ext (by match a with | ⟨0, _⟩ => rfl | ⟨1, _⟩ => rfl)
  rw [hj]
  have hz := product_entry x0 x1 r j
  unfold Cert.HeadSum.cubic
  rw [← hz]
  rfl

end Cert.HeadSum.Kernel

end
-- ==== Proof.PaddedWeight.lean ====
/-
  The matrix the kernel's second operand holds.

  Before the launch the host transposes the weights `W : [100, 128]` to `[128, 100]`, changes their format (the
  identity on the extended reals) and pads 28 columns on the right with the integer zero converted to a float, which
  is the extended real `0`. So entry `(k, j)` of the 128 × 128 matrix is `W[j, k]` for `j < 100` and `0` for the
  columns beyond: column `j` is head `j`'s weight row, and the last 28 columns are zero.
-/
import proofs.«138010_j4200478015619_2_alg».proof.Proof.Gen.KernelIdeal.Frame
import Idealize.ShloMosaic.Lib.KernelVsHost
import Idealize.ShloMosaic.Lib.Pipeline.Value
import Idealize.ShloMosaic.Lib.ValueIdx
import Idealize.ShloMosaic.Lib.StableHlo.Run

noncomputable section

namespace Cert.HeadSum.Weight

open Cert.KernelIdeal Cert.KernelIdeal.Gen Idealize.ShloMosaic Idealize.ShloMosaic.TcCoe Idealize.ShloMosaic.ValueIdx
open Idealize.SL.Sem Idealize.ShloMosaic.StableHlo

/-- The host's three layout steps on the weights: transpose, change of format, zero columns on the right. -/
def padded (w : FVec Ideal S100x128 .f32) : FVec Ideal S128x128 .bf16 :=
  pad S128x128 ![0, 0] ![0, 28] ![0, 0]
    (truncf .bf16 (transpose S128x100 [1, 0] w transposes_S100x128_S128x100_1_0) bitsLt_bf16_f32)
    (sitofp (F := Ideal) .bf16 (constantI S_ 32 0#32)) pads_S128x100_S128x128_000_0280 h_S_

/-- Column `h < 100` of the matrix is weight row `h`. -/
theorem padded_inside (w : FVec Ideal S100x128 .f32) (k : Fin 128) (h : Fin 100) :
    padded w (ix2 k (⟨h.val, by omega⟩ : Fin 128)) = w (ix2 h k) := by
  unfold padded
  refine (pad_apply_of_inside _ _ _ _ _ pads_S128x100_S128x128_000_0280 h_S_ (ix2 k (⟨h.val, by omega⟩ : Fin 128)) (ix2 k h)
    (fun a => by
      match a with
      | ⟨0, _⟩ => show k.val = 0 + k.val * (0 + 1); omega
      | ⟨1, _⟩ => show h.val = 0 + h.val * (0 + 1); omega)).trans ?_
  show transpose S128x100 [1, 0] w transposes_S100x128_S128x100_1_0 (ix2 k h) = _
  exact transpose_apply [1, 0] w transposes_S100x128_S128x100_1_0 (ix2 k h) (ix2 h k)
    (fun b => by match b with | ⟨0, _⟩ => rfl | ⟨1, _⟩ => rfl)

/-- The 28 columns beyond the hundredth are zero. -/
theorem padded_outside (w : FVec Ideal S100x128 .f32) (k j : Fin 128) (hj : 100 ≤ j.val) :
    padded w (ix2 k j) = 0 := by
  unfold padded
  refine (pad_apply_of_not_inside _ _ _ _ _ pads_S128x100_S128x128_000_0280 h_S_ (ix2 k j) (1 : Fin 2)
    (fun hin => by
      have h3 : (j.val - 0) / (0 + 1) < 100 := hin.2.2
      omega)).trans ?_
  exact sitofp_zero

variable (m : (ℓ : Loc nD τ sig) → Buf (Elt Ideal) ℓ)

/-- What the region finds in its second operand's array: the padded transpose of the weights as launched. -/
theorem found (c : Dev nD) :
    (V m c main_v2 : S128x128.Idx → EReal) = padded (m ((c : Thread nD τ).loc main_arg1)) := by
  dsimp only [Gen.V, Gen.V0]
  simp only [Gen.hostOps0, Gen.hostOps0_1, List.flatten_cons, List.flatten_nil, List.append_nil, List.cons_append,
    List.nil_append]
  after_results
  rfl

end Cert.HeadSum.Weight

end
-- ==== Proof.RowBlocks.lean ====
/-
  From the kernel's blocks to its whole output vector.

  The grid has 16 points; point `t` is handed rows `16384·t … 16384·t + 16383` of `x` and the whole 128 × 128 padded
  weight matrix, and writes back entries `16384·t …` of the output vector `[262144]`. Row `r` of the block is row
  `b = 16384·t + r` of `x`, so by the body's value at a row and the law of the zero lanes, what point `t` writes at `r`
  is `rowTotal x W b`: block `t` of the vector `rows x W`. The 16 blocks tile the vector (entry `i` lies in block
  `i / 16384`), so after the run the vector is `rows x W`.
-/
import proofs.«138010_j4200478015619_2_alg».proof.Proof.Gen.KernelIdeal.Frame
import proofs.«138010_j4200478015619_2_alg».proof.Proof.HeadSum
import proofs.«138010_j4200478015619_2_alg».proof.Proof.KernelRow
import proofs.«138010_j4200478015619_2_alg».proof.Proof.PaddedWeight
import Idealize.ShloMosaic.Lib.Pipeline.Value

noncomputable section

open scoped BigOperators

namespace Cert.HeadSum.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The row totals as the vector the kernel writes. -/
def rows (x : FVec Ideal S262144x128 .f32) (w : FVec Ideal S100x128 .f32) : S262144.Idx → EReal :=
  fun i => Cert.HeadSum.rowTotal x w ⟨(i 0).val, (i 0).isLt⟩

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: point `t` takes row block `t` of `x`, the one block of the matrix, and
    block `t` of the output vector. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = t.val :=
  (by decide +kernel : ∀ t : Fin grid0.N, _)

/-- Entry `(r, k)` of point `t`'s block of `x` is entry `(b, k)` of `x` as launched, `b = 16384·t + r`. -/
theorem xblock_apply (c : Dev nD) (t : Fin cfg0.N) (r : Fin 16384) (k : Fin 128) (b : Fin 262144)
    (hb : b.val = t.val * 16384 + r.val) :
    (iblk m c 0 t : Vec Ideal S16384x128 .f32) (ix2 r k)
      = (m ((c : Thread nD τ).loc main_arg0) : S262144x128.Idx → EReal) (ix2 b k) := by
  obtain ⟨e0, e1, -⟩ := idx_facts t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 2) * 16384 + 1 * r.val = b.val; rw [e0, hb]; omega
  | ⟨1, _⟩ => show win0_0.index t (1 : Fin 2) * 128 + 1 * k.val = k.val; rw [e1]; omega

/-- The matrix block at every point is the whole padded weight matrix. -/
theorem wblock_apply (c : Dev nD) (t : Fin cfg0.N) (k j : Fin 128) :
    (iblk m c 1 t : Vec Ideal S128x128 .bf16) (ix2 k j)
      = Cert.HeadSum.Weight.padded (m ((c : Thread nD τ).loc main_arg1)) (ix2 k j) := by
  obtain ⟨-, -, e2, e3, -⟩ := idx_facts t
  unfold iblk
  rw [View.read_apply]
  show (V m c main_v2 : S128x128.Idx → EReal) _ = _
  rw [Cert.HeadSum.Weight.found m c]
  refine congrArg (Cert.HeadSum.Weight.padded (m ((c : Thread nD τ).loc main_arg1))) (funext fun a => Fin.ext ?_)
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- THE BODY'S VALUE AT A ROW, for any blocks that hold row `b` of `x` at row `r` and the padded weights: the row's
    total over the hundred heads. The 28 zero lanes add nothing (`lanes_eq_heads`). -/
theorem row_value (x0 : Vec Ideal S16384x128 .f32) (x1 : Vec Ideal S128x128 .bf16)
    (x : FVec Ideal S262144x128 .f32) (w : FVec Ideal S100x128 .f32) (r : Fin 16384) (b : Fin 262144)
    (hx : ∀ k : Fin 128, x0 (ix2 r k) = x (ix2 b k))
    (hw : ∀ k j : Fin 128, x1 (ix2 k j) = Cert.HeadSum.Weight.padded w (ix2 k j)) :
    k0_pay1 (F := Ideal) x0 x1 (ix1 r) = Cert.HeadSum.rowTotal x w b := by
  rw [Cert.HeadSum.Kernel.payload_row x0 x1 r]
  unfold Cert.HeadSum.rowTotal Cert.HeadSum.score
  simp only [hx, hw]
  exact Cert.HeadSum.lanes_eq_heads (fun k => x (ix2 b k)) w (Cert.HeadSum.Weight.padded w)
    (Cert.HeadSum.Weight.padded_inside w) (Cert.HeadSum.Weight.padded_outside w)

/-- WHAT POINT `t` WRITES BACK is block `t` of the row totals of the arguments as launched. -/
theorem flushed_eq (c : Dev nD) (t : Fin cfg0.N) :
    (dats m 0 c).flushed 2 t = ((cfg0.win 2).blk t).view.read (Elt Ideal)
      (rows (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz1]
  simp only [View.ld_unit_zero (S := S16384x128) hz2, View.ld_unit_zero (S := S128x128) hz2]
  obtain ⟨-, -, -, -, e4⟩ := idx_facts t
  have hN : cfg0.N = 16 := N_0
  have ht : t.val < 16 := by have := t.isLt; omega
  funext y
  obtain ⟨r, rfl⟩ : ∃ r : Fin 16384, y = ix1 r := ⟨y 0, eq_ix1 y⟩
  show k0_pay1 (F := Ideal) (iblk m c 0 t) (iblk m c 1 t) (ix1 r) = _
  have hr : r.val < 16384 := r.isLt
  refine (row_value (iblk m c 0 t) (iblk m c 1 t) (m ((c : Thread nD τ).loc main_arg0)) (m ((c : Thread nD τ).loc main_arg1)) r
    ⟨t.val * 16384 + r.val, by omega⟩ (fun k => xblock_apply m c t r k _ rfl) (fun k j => wblock_apply m c t k j)).trans ?_
  rw [View.read_apply]
  unfold rows
  refine congrArg (Cert.HeadSum.rowTotal _ _) (Fin.ext ?_)
  show t.val * 16384 + r.val = win0_2.index t (0 : Fin 1) * 16384 + 1 * r.val
  rw [e4]; omega

/-- An entry of the vector is in point `t`'s block iff it is among that block's 16384 entries. -/
theorem mem_blk (t : Fin cfg0.N) (i : S262144.Idx) :
    i ∈ ((cfg0.win 2).blk t).view.set ↔ ∀ a : Fin 1, win0_2.index t a * S16384.size a ≤ (i a).val
      ∧ (i a).val < win0_2.index t a * S16384.size a + S16384.size a := by
  show i ∈ ((View.whole main_v3).slice (win0_2.rect t)).set ↔ _
  rw [View.set_slice_whole, Rect.mem_set_unit]
  exact Iff.rfl

/-- Every entry of the vector is in some point's block: entry `i` in block `i / 16384`. -/
theorem cover (i : S262144.Idx) : ∃ t : Fin cfg0.N, (cfg0.win 2).flush t = true ∧ i ∈ ((cfg0.win 2).blk t).view.set := by
  have hN : cfg0.N = 16 := N_0
  have hi : (i 0).val < 262144 := (i 0).isLt
  refine ⟨⟨(i 0).val / 16384, by omega⟩, flush0_2 _, ?_⟩
  rw [mem_blk]
  intro a
  obtain ⟨-, -, -, -, e4⟩ := idx_facts ⟨(i 0).val / 16384, by omega⟩
  match a with
  | ⟨0, _⟩ =>
    show win0_2.index ⟨(i 0).val / 16384, _⟩ (0 : Fin 1) * 16384 ≤ (i 0).val
      ∧ (i 0).val < win0_2.index ⟨(i 0).val / 16384, _⟩ (0 : Fin 1) * 16384 + 16384
    rw [e4]
    show (i 0).val / 16384 * 16384 ≤ (i 0).val ∧ (i 0).val < (i 0).val / 16384 * 16384 + 16384
    omega

/-- THE OUTPUT VECTOR after the run: the row totals of the arguments as launched. -/
theorem final (c : Dev nD) : (dats m 0 c).arrAt 2 cfg0.N
    = rows (m ((c : Thread nD τ).loc main_arg0)) (m ((c : Thread nD τ).loc main_arg1)) :=
  (dats m 0 c).arrAt_eq_of_cover 2 _ (fun t _ => flushed_eq m c t) cover

end Cert.HeadSum.Blocks

end
-- ==== Proof.KernelRun.lean ====
/-
  The kernel program's run, read.

  After the region the host reshapes the output vector `[262144]` to the column `[262144, 1]`: entry `(b, 0)` of the
  column is entry `b` of the vector (the same row-major position), which is row `b`'s total. So the program's result
  array ends at `HeadSum.total` of the arguments as launched, and the arguments end unchanged.
-/
import proofs.«138010_j4200478015619_2_alg».proof.Proof.Gen.KernelIdeal.Frame
import proofs.«138010_j4200478015619_2_alg».proof.Proof.HeadSum
import proofs.«138010_j4200478015619_2_alg».proof.Proof.RowBlocks
import Idealize.ShloMosaic.Lib.Pipeline.Value
import Idealize.ShloMosaic.Lib.StableHlo.Run

noncomputable section

namespace Cert.HeadSum.Run

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The vector of row totals reshaped to a column is the result array. -/
theorem column_of_rows (x : FVec Ideal S262144x128 .f32) (w : FVec Ideal S100x128 .f32) :
    shapeCast S262144x1 (Cert.HeadSum.Blocks.rows x w) shapeCasts_S262144_S262144x1 = Cert.HeadSum.total x w := by
  funext i
  refine (shapeCast_apply (Cert.HeadSum.Blocks.rows x w) shapeCasts_S262144_S262144x1 i
    (ix1 (⟨(i 0).val, idx2_lt0 i⟩ : Fin 262144)) ?_).trans rfl
  rw [Shape.rowMajor_val_one, Shape.rowMajor_val_two]
  have h1 : (i 1).val < 1 := (i 1).isLt
  show (i 0).val = (i 0).val * 1 + (i 1).val
  omega

/-- The host line after the region leaves the result array at the reshaped output vector of the region. -/
theorem tail_eq (c : Dev nD) :
    (Pipeline.afterTail₀ cfgs (dats m) 0 (V0 m) [hostOps1] c main_v4 : S262144x1.Idx → EReal)
      = Cert.HeadSum.total (m ((c : Thread nD τ).loc main_arg0)) (m ((c : Thread nD τ).loc main_arg1)) := by
  unfold Pipeline.afterTail₀
  show StableHlo.after hostOps1 _ (Proc.devRef .tc main_v4) = _
  after_results
  rw [← column_of_rows, ← Cert.HeadSum.Blocks.final m c]
  exact congrArg (fun v : S262144.Idx → EReal => shapeCast S262144x1 v shapeCasts_S262144_S262144x1)
    (Pipeline.withArrays_arr spec0 launch0.win.arr_inj c _ _ 2)

/-- THE RUN: every weakly fair execution of the kernel program terminates with the result array at the row totals of
    the arguments as launched, stored as a column, and the arguments unchanged. -/
theorem run : θ_run defs (onTc (τ := τ) (main (F := Ideal))) ⟨m, fun _ => 0, ρ⟩ fun r => ∀ c : Dev nD,
      r.2.mem ((c : Thread nD τ).loc main_v4)
        = Cert.HeadSum.total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.HeadSum.Run

end
-- ==== Proof.lean ====
/-
  The kernel's entry point against its reference, on the extended reals.

  Both programs take `x : [262144, 128]` and the weight rows `W : [100, 128]` of a hundred linear heads and return, for
  each row `b` of `x`, the total over the heads of `(z·z)·z + α·z` at the head's answer `z = ∑ₖ x[b,k] · W[h,k]`, as a column
  `[262144, 1]` (`HeadSum.total`; α is one f32 word, the same in both programs).

  The reference contracts `x` with `W` over the feature axis, applies the nonlinearity, adds each row's hundred entries and
  stores the totals as a column (`HeadSum.Reference.result_eq_total`, over the generated reading of its run).

  The kernel program first transposes `W`, changes its format and pads it with 28 zero columns to a 128 × 128 matrix
  (`HeadSum.Weight`); then, on a grid of 16 points, each point multiplies its 16384 rows of `x` by that matrix, applies
  the nonlinearity to all 128 lanes and adds them (`HeadSum.Kernel.payload_row`). A lane beyond the hundredth holds
  `z = ∑ₖ x[b,k] · 0 = 0`, which the nonlinearity sends to `0`, so the 128-lane sum is the hundred-head total
  (`HeadSum.lanes_eq_heads`: `a · 0 = 0` holds at the infinities too, so no finiteness of the inputs is used). The 16
  blocks tile the output vector (`HeadSum.Blocks.final`), which the host then reshapes to the column (`HeadSum.Run.run`).

  The three frames are the programs' runs with the values dropped; the idealization rewrote nothing, so `preserves`
  has nothing to state.
-/
import proofs.«138010_j4200478015619_2_alg».proof.Defs
import proofs.«138010_j4200478015619_2_alg».proof.Proof.Gen.Kernel
import proofs.«138010_j4200478015619_2_alg».proof.Proof.Gen.Kernel.Skeleton
import proofs.«138010_j4200478015619_2_alg».proof.Proof.Gen.Kernel.Launch
import proofs.«138010_j4200478015619_2_alg».proof.Proof.Gen.Kernel.Points
import proofs.«138010_j4200478015619_2_alg».proof.Proof.Gen.Kernel.Frame
import proofs.«138010_j4200478015619_2_alg».proof.Proof.Gen.KernelIdeal
import proofs.«138010_j4200478015619_2_alg».proof.Proof.Gen.KernelIdeal.Skeleton
import proofs.«138010_j4200478015619_2_alg».proof.Proof.Gen.KernelIdeal.Launch
import proofs.«138010_j4200478015619_2_alg».proof.Proof.Gen.KernelIdeal.Points
import proofs.«138010_j4200478015619_2_alg».proof.Proof.Gen.KernelIdeal.Frame
import proofs.«138010_j4200478015619_2_alg».proof.Proof.Gen.ReferenceIdeal
import proofs.«138010_j4200478015619_2_alg».proof.Proof.Gen.ReferenceIdeal.Run
import proofs.«138010_j4200478015619_2_alg».proof.Proof.Gen.ReferenceIdeal.Read
import proofs.«138010_j4200478015619_2_alg».proof.Proof.Gen.Pre_finite_inputs
import proofs.«138010_j4200478015619_2_alg».proof.Proof.HeadSum
import proofs.«138010_j4200478015619_2_alg».proof.Proof.ReferenceRows
import proofs.«138010_j4200478015619_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `W`, both programs end with the column of row totals of those arguments. -/
theorem algebraic : Cert.algebraic_KernelIdeal_ReferenceIdeal := by
  intro m ρ m' ρ' _ hagree
  refine ⟨_, Cert.HeadSum.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.HeadSum.Reference.result_eq_total, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
